-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1000x256 : S_.BroadcastsInDim S1000x256 (![] : Fin 0 → Fin S1000x256.rank)
  reducesTo_S1000x256_S_d0_1 : S1000x256.ReducesTo [0, 1] S_

variable [Facts]

def fn_part2 {F : FTy → Type} [FloatOps F] (main_arg3 : FVec F S256 .f32) (main_v33 : IVec S_ 1) : IVec S_ 1 :=
  let main_cst_12 : FVec F S_ .f32 := constant S_ .f32 0x00000000#32
  let main_v34 : FVec F S256 .f32 := broadcastInDim S256 ![] bcast_S_S256 main_cst_12
  let main_v35 : IVec S256 1 := cmpf .oge main_arg3 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v33 main_v36
  main_v37

def fn_part1 {F : FTy → Type} [FloatOps F] (main_arg3 : FVec F S256 .f32) (main_arg5 : FVec F S1000x256 .f32) (main_arg7 : FVec F S256 .f32) (main_arg8 : FVec F S256 .f32) (main_v13 : IVec S_ 1) (main_v16 : IVec S1000x256 1) : IVec S_ 1 :=
  let main_c_5 : IVec S_ 1 := constantI S_ 1 1#1
  let main_v17 : IVec S_ 1 := (fun x v => Host.reduce IntOp.andi x v reducesTo_S1000x256_S_d0_1 h_S_) main_v16 main_c_5
  let main_v18 : IVec S_ 1 := andi main_v13 main_v17
  let main_v19 : FVec F S1000x256 .f32 := Host.absf main_arg5
  let main_cst_6 : FVec F S_ .f32 := constant S_ .f32 0x7F800000#32
  let main_v20 : FVec F S1000x256 .f32 := broadcastInDim S1000x256 ![] bcast_S_S1000x256 main_cst_6
  let main_v21 : IVec S1000x256 1 := cmpf .olt main_v19 main_v20
  let main_c_7 : IVec S_ 1 := constantI S_ 1 1#1
  let main_v22 : IVec S_ 1 := (fun x v => Host.reduce IntOp.andi x v reducesTo_S1000x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_v33

def fn {F : FTy → Type} [FloatOps F] (main_arg0 : FVec F S64x256x56x56 .f32) (main_arg1 : IVec S64 32) (main_arg2 : FVec F S256 .f32) (main_arg3 : FVec F S256 .f32) (main_arg4 : FVec F S1000x256 .f32) (main_arg5 : FVec F S1000x256 .f32) (main_arg6 : IVec S1000 32) (main_arg7 : FVec F S256 .f32) (main_arg8 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1000x256 .f32 := Host.absf main_arg4
  let main_cst_4 : FVec F S_ .f32 := constant S_ .f32 0x7F800000#32
  let main_v15 : FVec F S1000x256 .f32 := broadcastInDim S1000x256 ![] bcast_S_S1000x256 main_cst_4
  let main_v16 : IVec S1000x256 1 := cmpf .olt main_v14 main_v15
  fn_part1 (F := F) main_arg3 main_arg5 main_arg7 main_arg8 main_v13 main_v16
-- ==== Kernel.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩
abbrev S64x1 : Shape := ⟨2, ![64, 1]⟩
abbrev S1x256 : Shape := ⟨2, ![1, 256]⟩
abbrev S64x256 : Shape := ⟨2, ![64, 256]⟩
abbrev S64x256x3136 : Shape := ⟨3, ![64, 256, 3136]⟩
abbrev S4x256x3136 : Shape := ⟨3, ![4, 256, 3136]⟩
abbrev S4x256 : Shape := ⟨2, ![4, 256]⟩
abbrev S4x256x1 : Shape := ⟨3, ![4, 256, 1]⟩

abbrev nBuf : Space → Nat
  | .hbm => 87
  | .vmem => 6
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S256, .f32⟩
  | .hbm, ⟨3, _⟩ => ⟨S256, .f32⟩
  | .hbm, ⟨4, _⟩ => ⟨S1000x256, .f32⟩
  | .hbm, ⟨5, _⟩ => ⟨S1000x256, .f32⟩
  | .hbm, ⟨6, _⟩ => ⟨S1000, .i32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i1⟩
  | .hbm, ⟨22, _⟩ => ⟨S64, .i1⟩
  | .hbm, ⟨23, _⟩ => ⟨S64, .i1⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S64x256, .f32⟩
  | .hbm, ⟨37, _⟩ => ⟨S_, .f32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S64x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S64x256, .f32⟩
  | .hbm, ⟨55, _⟩ => ⟨S_, .f32⟩
  | .hbm, ⟨56, _⟩ => ⟨S64x256, .f32⟩
  | .hbm, ⟨57, _⟩ => ⟨S64x256, .f32⟩
  | .hbm, ⟨58, _⟩ => ⟨S64x256, .f32⟩
  | .hbm, ⟨59, _⟩ => ⟨S64x256, .f32⟩
  | .hbm, ⟨60, _⟩ => ⟨S_, .f32⟩
  | .hbm, ⟨61, _⟩ => ⟨S64x256, .f32⟩
  | .hbm, ⟨62, _⟩ => ⟨S64x256, .f32⟩
  | .hbm, ⟨63, _⟩ => ⟨S64x1, .i1⟩
  | .hbm, ⟨64, _⟩ => ⟨S1x256, .f32⟩
  | .hbm, ⟨65, _⟩ => ⟨S64x256, .i1⟩
  | .hbm, ⟨66, _⟩ => ⟨S64x256, .f32⟩
  | .hbm, ⟨67, _⟩ => ⟨S64x256, .f32⟩
  | .hbm, ⟨68, _⟩ => ⟨S64x1, .i1⟩
  | .hbm, ⟨69, _⟩ => ⟨S1x256, .f32⟩
  | .hbm, ⟨70, _⟩ => ⟨S64x256, .i1⟩
  | .hbm, ⟨71, _⟩ => ⟨S64x256, .f32⟩
  | .hbm, ⟨72, _⟩ => ⟨S64x256, .f32⟩
  | .hbm, ⟨73, _⟩ => ⟨S_, .f32⟩
  | .hbm, ⟨74, _⟩ => ⟨S64x256, .f32⟩
  | .hbm, ⟨75, _⟩ => ⟨S64x256, .f32⟩
  | .hbm, ⟨76, _⟩ => ⟨S64x256, .f32⟩
  | .hbm, ⟨77, _⟩ => ⟨S1x256, .f32⟩
  | .hbm, ⟨78, _⟩ => ⟨S64x256, .f32⟩
  | .hbm, ⟨79, _⟩ => ⟨S64x256, .f32⟩
  | .hbm, ⟨80, _⟩ => ⟨S1x256, .f32⟩
  | .hbm, ⟨81, _⟩ => ⟨S64x256, .f32⟩
  | .hbm, ⟨82, _⟩ => ⟨S64x256, .f32⟩
  | .hbm, ⟨83, _⟩ => ⟨S64x256, .f32⟩
  | .hbm, ⟨84, _⟩ => ⟨S64x256x3136, .f32⟩
  | .hbm, ⟨85, _⟩ => ⟨S64x256x3136, .f32⟩
  | .hbm, ⟨86, _⟩ => ⟨S64x256x56x56, .f32⟩
  | .local _ .vmem, ⟨0, _⟩ => ⟨S4x256x3136, .f32⟩
  | .local _ .vmem, ⟨1, _⟩ => ⟨S4x256x3136, .f32⟩
  | .local _ .vmem, ⟨2, _⟩ => ⟨S64x256, .f32⟩
  | .local _ .vmem, ⟨3, _⟩ => ⟨S64x256, .f32⟩
  | .local _ .vmem, ⟨4, _⟩ => ⟨S4x256x3136, .f32⟩
  | .local _ .vmem, ⟨5, _⟩ => ⟨S4x256x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_v0 : Ref sig .tc := ⟨.hbm, 65, rfl⟩
abbrev main_call0_v1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_v0 : Ref sig .tc := ⟨.hbm, 70, rfl⟩
abbrev main_call1_v1 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c4_i32 : BitVec 32 := 4#32
  let v0 : BitVec 32 := Scalar.muli arg0 c4_i32
  v0
def k0_off1 (i : grid0.Coords) : Fin 2 → Nat :=
  let arg0 : BitVec 32 := BitVec.ofNat 32 (i 0).val
  let c4_i32 : BitVec 32 := 4#32
  let v0 : BitVec 32 := Scalar.muli arg0 c4_i32
  let v1 : BitVec 32 := v0
  let v2 : Index := Scalar.indexCast v1
  let c0 : Index := 0#32
  ![v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S_S1x256 : S_.BroadcastsInDim S1x256 (![] : Fin 0 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  shapeCasts_S64x256x56x56_S64x256x3136 : S64x256x56x56.ShapeCasts S64x256x3136
  h_S4x256 : 0 < S4x256.numel
  shapeCasts_S4x256_S4x256 : S4x256.ShapeCasts S4x256
  inb_S4x256x3136_S4x256x3136_0_0_0 : ∀ a, (![0, 0, 0] : Fin 3 → Nat) a + S4x256x3136.size a ≤ S4x256x3136.size a
  h_S4x256x3136 : 0 < S4x256x3136.numel
  shapeCasts_S4x256x3136_S4x256x3136 : S4x256x3136.ShapeCasts S4x256x3136
  shapeCasts_S4x256_S4x256x1 : S4x256.ShapeCasts S4x256x1
  broadcasts_S4x256x1_S4x256x3136 : S4x256x1.Broadcasts S4x256x3136
  shapeCasts_S64x256x3136_S64x256x56x56 : S64x256x3136.ShapeCasts S64x256x56x56
  gather_S1000_S64x1_S64_n_0_n_n_0_1_1_wf : GatherDims.WF S1000 S64x1 S64 [] [0] [] [0] [] 1 ![1]
  gather_S1000x256_S64x1_S64x256_1_0_n_n_0_1_1256_wf : GatherDims.WF S1000x256 S64x1 S64x256 [1] [0] [] [0] [] 1 ![1, 256]
  hrank0 : 0 < grid0.rank
  k0_mult1_dvd : ∀ i : grid0.Coords, 4 ∣ (k0_mult1 i).toNat
  k0_off1_inb : ∀ i : grid0.Coords, ∀ a, (k0_off1 i) a + S4x256.size a ≤ S64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x3136.size a ≤ S64x256x3136.size a
  hwx0_0 : ∀ i : grid0.Coords, EltTy.bits .f32 = 32 ∨ (Rect.block (s := S64x256x3136) S4x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x3136.size a ≤ S64x256x3136.size a
  hwx0_3 : ∀ i : grid0.Coords, EltTy.bits .f32 = 32 ∨ (Rect.block (s := S64x256x3136) S4x256x3136.size (cc0_transform_3 i) (hinb0_3 i)).WholeWords (EltTy.packing .f32)

variable [Facts₀]

def gather_S1000_S64x1_S64_n_0_n_n_0_1_1 : GatherDims S1000 S64x1 S64 where
  offsetDims := []
  collapsedSliceDims := [0]
  operandBatchingDims := []
  startIndicesBatchingDims := []
  startIndexMap := [0]
  indexVectorDim := 1
  sliceSizes := ![1]
  wf := gather_S1000_S64x1_S64_n_0_n_n_0_1_1_wf
def gather_S1000x256_S64x1_S64x256_1_0_n_n_0_1_1256 : GatherDims S1000x256 S64x1 S64x256 where
  offsetDims := [1]
  collapsedSliceDims := [0]
  operandBatchingDims := []
  startIndicesBatchingDims := []
  startIndexMap := [0]
  indexVectorDim := 1
  sliceSizes := ![1, 256]
  wf := gather_S1000x256_S64x1_S64x256_1_0_n_n_0_1_1256_wf

abbrev win0_0 : Pipeline.Window sig grid0 :=
  Pipeline.Window.ofSpec (Memref.whole main_v57) S4x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S4x256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩
abbrev S64x1 : Shape := ⟨2, ![64, 1]⟩
abbrev S1x256 : Shape := ⟨2, ![1, 256]⟩
abbrev S64x256 : Shape := ⟨2, ![64, 256]⟩
abbrev S64x256x1x1 : Shape := ⟨4, ![64, 256, 1, 1]⟩
abbrev S1x256x1x1 : Shape := ⟨4, ![1, 256, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S256, .f32⟩
  | .hbm, ⟨3, _⟩ => ⟨S256, .f32⟩
  | .hbm, ⟨4, _⟩ => ⟨S1000x256, .f32⟩
  | .hbm, ⟨5, _⟩ => ⟨S1000x256, .f32⟩
  | .hbm, ⟨6, _⟩ => ⟨S1000, .i32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i1⟩
  | .hbm, ⟨22, _⟩ => ⟨S64, .i1⟩
  | .hbm, ⟨23, _⟩ => ⟨S64, .i1⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S64x256, .f32⟩
  | .hbm, ⟨37, _⟩ => ⟨S_, .f32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S64x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S64x256, .f32⟩
  | .hbm, ⟨55, _⟩ => ⟨S_, .f32⟩
  | .hbm, ⟨56, _⟩ => ⟨S64x256, .f32⟩
  | .hbm, ⟨57, _⟩ => ⟨S64x256, .f32⟩
  | .hbm, ⟨58, _⟩ => ⟨S64x256, .f32⟩
  | .hbm, ⟨59, _⟩ => ⟨S64x256, .f32⟩
  | .hbm, ⟨60, _⟩ => ⟨S_, .f32⟩
  | .hbm, ⟨61, _⟩ => ⟨S64x256, .f32⟩
  | .hbm, ⟨62, _⟩ => ⟨S64x256, .f32⟩
  | .hbm, ⟨63, _⟩ => ⟨S64x1, .i1⟩
  | .hbm, ⟨64, _⟩ => ⟨S1x256, .f32⟩
  | .hbm, ⟨65, _⟩ => ⟨S64x256, .i1⟩
  | .hbm, ⟨66, _⟩ => ⟨S64x256, .f32⟩
  | .hbm, ⟨67, _⟩ => ⟨S64x256, .f32⟩
  | .hbm, ⟨68, _⟩ => ⟨S64x1, .i1⟩
  | .hbm, ⟨69, _⟩ => ⟨S1x256, .f32⟩
  | .hbm, ⟨70, _⟩ => ⟨S64x256, .i1⟩
  | .hbm, ⟨71, _⟩ => ⟨S64x256, .f32⟩
  | .hbm, ⟨72, _⟩ => ⟨S64x256, .f32⟩
  | .hbm, ⟨73, _⟩ => ⟨S64x256x1x1, .f32⟩
  | .hbm, ⟨74, _⟩ => ⟨S64x256x56x56, .f32⟩
  | .hbm, ⟨75, _⟩ => ⟨S64x256x56x56, .f32⟩
  | .hbm, ⟨76, _⟩ => ⟨S_, .f32⟩
  | .hbm, ⟨77, _⟩ => ⟨S64x256, .f32⟩
  | .hbm, ⟨78, _⟩ => ⟨S64x256, .f32⟩
  | .hbm, ⟨79, _⟩ => ⟨S64x256, .f32⟩
  | .hbm, ⟨80, _⟩ => ⟨S64x256x1x1, .f32⟩
  | .hbm, ⟨81, _⟩ => ⟨S64x256x56x56, .f32⟩
  | .hbm, ⟨82, _⟩ => ⟨S64x256x56x56, .f32⟩
  | .hbm, ⟨83, _⟩ => ⟨S1x256x1x1, .f32⟩
  | .hbm, ⟨84, _⟩ => ⟨S64x256x56x56, .f32⟩
  | .hbm, ⟨85, _⟩ => ⟨S64x256x56x56, .f32⟩
  | .hbm, ⟨86, _⟩ => ⟨S1x256x1x1, .f32⟩
  | .hbm, ⟨87, _⟩ => ⟨S64x256x56x56, .f32⟩
  | .hbm, ⟨88, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_v0 : Ref sig .tc := ⟨.hbm, 65, rfl⟩
abbrev main_call0_v1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_v0 : Ref sig .tc := ⟨.hbm, 70, rfl⟩
abbrev main_call1_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S_S1x256 : S_.BroadcastsInDim S1x256 (![] : Fin 0 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  gather_S1000_S64x1_S64_n_0_n_n_0_1_1_wf : GatherDims.WF S1000 S64x1 S64 [] [0] [] [0] [] 1 ![1]
  gather_S1000x256_S64x1_S64x256_1_0_n_n_0_1_1256_wf : GatherDims.WF S1000x256 S64x1 S64x256 [1] [0] [] [0] [] 1 ![1, 256]

variable [Facts₀]

def gather_S1000_S64x1_S64_n_0_n_n_0_1_1 : GatherDims S1000 S64x1 S64 where
  offsetDims := []
  collapsedSliceDims := [0]
  operandBatchingDims := []
  startIndicesBatchingDims := []
  startIndexMap := [0]
  indexVectorDim := 1
  sliceSizes := ![1]
  wf := gather_S1000_S64x1_S64_n_0_n_n_0_1_1_wf
def gather_S1000x256_S64x1_S64x256_1_0_n_n_0_1_1256 : GatherDims S1000x256 S64x1 S64x256 where
  offsetDims := [1]
  collapsedSliceDims := [0]
  operandBatchingDims := []
  startIndicesBatchingDims := []
  startIndexMap := [0]
  indexVectorDim := 1
  sliceSizes := ![1, 256]
  wf := gather_S1000x256_S64x1_S64x256_1_0_n_n_0_1_1256_wf

class Facts : Prop extends Facts₀ where

variable [Facts]
-- ==== Proof.PreFacts.lean ====
import proofs.«137653_j76192719831905_2_alg».proof.Pre_finite_inputs
import Idealize.ShloMosaic.Lib.ReduceAll
import Idealize.ShloMosaic.Lib.IdealHost
import Idealize.ShloMosaic.PureOps.Ideal.Laws

namespace Cert.PreFacts

open Idealize.ShloMosaic
open Cert.Pre_finite_inputs (S_ S64 S256 S1000 S1000x256 S64x256x56x56)

/-- The f32 word with all exponent bits set and a zero fraction denotes the top element. -/
theorem ofBits_inf_f32 : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by
  cases b <;> decide

/-- For an extended real, max x (-x) is strictly below the top element exactly when x is neither infinity. -/
theorem abs_lt_top_iff (x : EReal) : Ideal.cmp .olt (max x (-x)) ⊤ = 1#1 ↔ x ≠ ⊤ ∧ x ≠ ⊥ := by
  induction x using EReal.rec with
  | bot => simp [Ideal.cmp, ofBool_eq_one]
  | top => simp [Ideal.cmp, ofBool_eq_one]
  | coe r =>
    have h1 : ((r : ℝ) : EReal) < ⊤ := EReal.coe_lt_top r
    have h2 : -((r : ℝ) : EReal) < ⊤ := by rw [← EReal.coe_neg]; exact EReal.coe_lt_top _
    simp [Ideal.cmp, ofBool_eq_one, h1, h2]

/-- The ordered comparison "at least zero" is 1 exactly when zero is below the value. -/
theorem oge_zero_iff (x : EReal) : Ideal.cmp .oge x 0 = 1#1 ↔ 0 ≤ x := by
  simp [Ideal.cmp, ofBool_eq_one]

/-- The scalar shape has exactly one index. -/
instance subsingleton_scalar_idx : Subsingleton S_.Idx := ⟨fun a b => funext fun d => d.elim0⟩

/-- If the conjunction over all elements of "|a| is below plus infinity" is 1, every element of a is a real:
    it is neither the top nor the bottom element. -/
theorem all_abs_lt_inf {s : Shape} {axes : List (Fin s.rank)}
    (hb : S_.BroadcastsInDim s (![] : Fin 0 → Fin s.rank)) (hr : s.ReducesTo axes S_) (hu : 0 < S_.numel)
    (a : FVec Ideal s .f32)
    (e : Host.reduce IntOp.andi
          (cmpf .olt (Host.absf a) (broadcastInDim s ![] hb (constant S_ .f32 0x7F800000#32)))
          (constantI S_ 1 1#1) hr hu ValueIdx.ix0 = 1#1)
    (i : s.Idx) : a i ≠ ⊤ ∧ a i ≠ ⊥ := by
  have h := Host.reduce_andi_all _ _ hr hu _ e i
  have h' : Ideal.cmp .olt (max (a i) (-(a i))) (Ideal.ofBits .f32 0x7F800000#32) = 1#1 := h
  rw [ofBits_inf_f32] at h'
  exact (abs_lt_top_iff _).1 h'

/-- If the conjunction over all elements of "a is at least zero" is 1, every element of a is at least zero. -/
theorem all_oge_zero {s : Shape} {axes : List (Fin s.rank)}
    (hb : S_.BroadcastsInDim s (![] : Fin 0 → Fin s.rank)) (hr : s.ReducesTo axes S_) (hu : 0 < S_.numel)
    (a : FVec Ideal s .f32)
    (e : Host.reduce IntOp.andi
          (cmpf .oge a (broadcastInDim s ![] hb (constant S_ .f32 0x00000000#32)))
          (constantI S_ 1 1#1) hr hu ValueIdx.ix0 = 1#1)
    (i : s.Idx) : (0 : EReal) ≤ a i := by
  have h := Host.reduce_andi_all _ _ hr hu _ e i
  have h' : Ideal.cmp .oge (a i) (Ideal.ofBits .f32 0x00000000#32) = 1#1 := h
  rw [Ideal.ofBits_zero_f32] at h'
  exact (oge_zero_iff _).1 h'

/-- The conjunction of two scalar one-bit values is 1 exactly when both are. -/
theorem andi_scalar_eq_one (x y : IVec S_ 1) :
    andi x y ValueIdx.ix0 = 1#1 ↔ x ValueIdx.ix0 = 1#1 ∧ y ValueIdx.ix0 = 1#1 := IntOp.andi_eq_one

/-- The precondition read back: when the printed predicate evaluates to 1 on the extended reals, each of the seven
    float arguments has only real entries (neither infinity), and every entry of the fourth argument is at least zero. -/
theorem of_pre [Cert.Pre_finite_inputs.Facts] (a0 : FVec Ideal Cert.Pre_finite_inputs.S64x256x56x56 .f32)
    (a1 : IVec Cert.Pre_finite_inputs.S64 32) (a2 a3 : FVec Ideal Cert.Pre_finite_inputs.S256 .f32)
    (a4 a5 : FVec Ideal Cert.Pre_finite_inputs.S1000x256 .f32) (a6 : IVec Cert.Pre_finite_inputs.S1000 32)
    (a7 a8 : FVec Ideal Cert.Pre_finite_inputs.S256 .f32)
    (h : Cert.Pre_finite_inputs.fn (F := Ideal) a0 a1 a2 a3 a4 a5 a6 a7 a8 = (fun _ => 1#1)) :
    (∀ i, a0 i ≠ ⊤ ∧ a0 i ≠ ⊥) ∧ (∀ i, a2 i ≠ ⊤ ∧ a2 i ≠ ⊥) ∧ (∀ i, a3 i ≠ ⊤ ∧ a3 i ≠ ⊥) ∧
    (∀ i, a4 i ≠ ⊤ ∧ a4 i ≠ ⊥) ∧ (∀ i, a5 i ≠ ⊤ ∧ a5 i ≠ ⊥) ∧ (∀ i, a7 i ≠ ⊤ ∧ a7 i ≠ ⊥) ∧
    (∀ i, a8 i ≠ ⊤ ∧ a8 i ≠ ⊥) ∧ (∀ i, (0 : EReal) ≤ a3 i) := by
  have h0 := congrFun h ValueIdx.ix0
  dsimp only [Cert.Pre_finite_inputs.fn, Cert.Pre_finite_inputs.fn_part1, Cert.Pre_finite_inputs.fn_part2] at h0
  simp only [andi_scalar_eq_one] at h0
  obtain ⟨⟨⟨⟨⟨⟨⟨e0, e2⟩, e3⟩, e4⟩, e5⟩, e7⟩, e8⟩, e3'⟩ := h0
  exact ⟨all_abs_lt_inf _ _ _ a0 e0, all_abs_lt_inf _ _ _ a2 e2, all_abs_lt_inf _ _ _ a3 e3,
    all_abs_lt_inf _ _ _ a4 e4, all_abs_lt_inf _ _ _ a5 e5, all_abs_lt_inf _ _ _ a7 e7,
    all_abs_lt_inf _ _ _ a8 e8, all_oge_zero _ _ _ a3 e3'⟩

end Cert.PreFacts
-- ==== Proof.KernelHost.lean ====
/-
  The host side of the kernel's program, as values.

  Before the region the program computes, per sample `b` and channel `c`, a mean and a variance (the class-conditional
  blend of running statistics, by the same operations, in the same order and with the same literals as the reference
  program: the reference's stages for them are used here as the names of these two arrays), and from them
    scale = weight · rsqrt (var + ε)        shift = bias − mean · scale,
  and it flattens the two spatial axes of `x`.  After the region it unflattens the result.  This module states what
  the region finds in its three input arrays, and what the program returns in terms of the region's result array.
-/
import proofs.«137653_j76192719831905_2_alg».proof.Proof.Gen.KernelIdeal.Frame
import proofs.«137653_j76192719831905_2_alg».proof.Proof.Gen.ReferenceIdeal.Read
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HostSide

open Cert.KernelIdeal Cert.KernelIdeal.Gen

variable {F : FTy → Type} [FloatOps F]

/-- The per-sample, per-channel scale: the channel's weight times the reciprocal square root of variance plus ε. -/
def scaleOf (w : FVec F S256 .f32) (var : FVec F S64x256 .f32) : FVec F S64x256 .f32 :=
  mulf (broadcastInDim S64x256 ![0, 1] bcast_S1x256_S64x256_0_1 (broadcastInDim S1x256 ![1] bcast_S256_S1x256_1 w))
    (Host.rsqrt (addf var (broadcastInDim S64x256 ![] bcast_S_S64x256 (constant S_ .f32 0x3727C5AC#32))))

/-- The per-sample, per-channel shift: the channel's bias minus mean times scale. -/
def shiftOf (b : FVec F S256 .f32) (mean scale : FVec F S64x256 .f32) : FVec F S64x256 .f32 :=
  subf (broadcastInDim S64x256 ![0, 1] bcast_S1x256_S64x256_0_1 (broadcastInDim S1x256 ![1] bcast_S256_S1x256_1 b))
    (mulf mean scale)

variable (m : (ℓ : Loc nD τ sig) → Buf (Elt F) ℓ)

/-- The mean array `[64, 256]` of the launch contents (the reference's stage, read at this program's arguments). -/
abbrev meanOf (c : Dev nD) : FVec F S64x256 .f32 :=
  Cert.ReferenceIdeal.Read.val_main_v43 (F := F) (m ((c : Thread nD τ).loc main_arg1)) (m ((c : Thread nD τ).loc main_arg2))
    (m ((c : Thread nD τ).loc main_arg4)) (m ((c : Thread nD τ).loc main_arg6))

/-- The variance array `[64, 256]` of the launch contents (the reference's stage, read at this program's arguments). -/
abbrev varOf (c : Dev nD) : FVec F S64x256 .f32 :=
  Cert.ReferenceIdeal.Read.val_main_v46 (F := F) (m ((c : Thread nD τ).loc main_arg1)) (m ((c : Thread nD τ).loc main_arg3))
    (m ((c : Thread nD τ).loc main_arg5)) (m ((c : Thread nD τ).loc main_arg6))

set_option maxHeartbeats 16000000 in
/-- The region finds `x` with its two spatial axes flattened. -/
theorem V_x (c : Dev nD) : (V m c main_v57 : S64x256x3136.Idx → Elt F .f32)
    = shapeCast S64x256x3136 (m ((c : Thread nD τ).loc main_arg0)) shapeCasts_S64x256x56x56_S64x256x3136 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp <;> rfl

set_option maxHeartbeats 16000000 in
/-- The region finds the scale of the launch contents' weight and variance. -/
theorem V_scale (c : Dev nD) : (V m c main_v52 : S64x256.Idx → Elt F .f32)
    = scaleOf (m ((c : Thread nD τ).loc main_arg7)) (varOf m c) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp <;> rfl

set_option maxHeartbeats 16000000 in
/-- The region finds the shift of the launch contents' bias, mean and scale. -/
theorem V_shift (c : Dev nD) : (V m c main_v56 : S64x256.Idx → Elt F .f32)
    = shiftOf (m ((c : Thread nD τ).loc main_arg8)) (meanOf m c) (scaleOf (m ((c : Thread nD τ).loc main_arg7)) (varOf m c)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp <;> rfl

/-- What the program returns: the region's result array with its last axis split back into the two spatial axes. -/
theorem tail_eq (c : Dev nD) :
    Pipeline.afterTail₀ cfgs (dats m) 0 (V0 m) [hostOps1] c main_v59
      = shapeCast S64x256x56x56 ((dats m 0 c).arrAt 3 cfg0.N) shapeCasts_S64x256x3136_S64x256x56x56 := by
  unfold Pipeline.afterTail₀
  show StableHlo.after hostOps1 _ (Proc.devRef .tc main_v59) = _
  after_results
  rw [Pipeline.withArrays_arr spec0 launch0.win.arr_inj c _ _ 3]
  rfl

end Cert.KernelIdeal.HostSide

end
-- ==== Proof.KernelBlocks.lean ====
/-
  What the kernel's one region leaves in its result array, at the ideal instance.

  The region walks the batch axis in sixteen blocks of four samples.  At block `t` the body multiplies the block
  `x[4t : 4t+4, :, :]` of the flattened input `[64, 256, 3136]` by the rows `4t … 4t+3` of the per-sample,
  per-channel scale `[64, 256]`, spread along the spatial axis, and adds the same rows of the shift.  So whatever the
  three input arrays hold when the region is entered, the result array ends as ONE function of them, index by index:
  `out (b, c, l) = x (b, c, l) · scale (b, c) + shift (b, c)`.  Every batch row lies in exactly one block (`b / 4`).
-/
import proofs.«137653_j76192719831905_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## The body's one store, as a value -/

theorem hz3 : (![0, 0, 0] : Fin 3 → Nat) = fun _ => 0 := funext fun a => by fin_cases a <;> rfl

/-- The body leaves in the output's staging buffer its one covering store's payload: the arithmetic of the whole
    `x` block and of the four rows of scale and shift it loads at the block's row offset. -/
theorem out_A {F : FTy → Type} [FloatOps F] (c : Dev nD) (i : grid0.Coords)
    (a1 : Memref sig .tc .vmem S4x256x3136 .f32) (h1 : a1.IsWhole)
    (a2 : Memref sig .tc .vmem S64x256 .f32) (h2 : a2.IsWhole) (a3 : Memref sig .tc .vmem S64x256 .f32) (h3 : a3.IsWhole)
    (a4 : Memref sig .tc .vmem S4x256x3136 .f32) (h4 : a4.IsWhole)
    (x0 : Vec F S4x256x3136 .f32) (x1 : Vec F S64x256 .f32) (x2 : Vec F S64x256 .f32) :
    out0_A_3 c i a1 h1 a2 h2 a3 h3 a4 h4 x0 x1 x2
      = k0_pay1 (View.ld x1 (Rect.unit (s := S64x256) (k0_off1 i) S4x256.size (k0_off1_inb i)))
          (View.ld x2 (Rect.unit (s := S64x256) (k0_off1 i) S4x256.size (k0_off1_inb i))) x0 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz3]
  simp only [View.readAt_eq_ld, h1.read_unread, h2.read_unread, h3.read_unread, View.ld_unit_zero (S := S4x256x3136) hz3]

/-! ## The payload at an index -/

/-- A `[4, 256]` block given a trailing unit axis reads, at `(r, c, 0)`, the block at `(r, c)`. -/
theorem cast_col {α : Type} (v : S4x256.Idx → α) (h : S4x256.ShapeCasts S4x256x1) (r : Fin 4) (c : Fin 256) (u : Fin 1) :
    shapeCast S4x256x1 v h (ix3 r c u) = v (ix2 r c) :=
  shapeCast_apply v h _ _ (by
    have hu : u.val = 0 := by omega
    rw [Shape.rowMajor_val_two, Shape.rowMajor_val_three]
    show r.val * 256 + c.val = (r.val * 256 + c.val) * 1 + u.val
    omega)

/-- A `[4, 256, 1]` column spread along the last axis reads, at `(r, c, l)`, the column at `(r, c, 0)`. -/
theorem spread_col {α : Type} (v : S4x256x1.Idx → α) (h : S4x256x1.Broadcasts S4x256x3136) (r : Fin 4) (c : Fin 256)
    (l : Fin 3136) : broadcastTo S4x256x3136 v h (ix3 r c l) = v (ix3 r c (0 : Fin 1)) :=
  broadcastTo_apply v h _ _ (fun a => by
    match a with
    | ⟨0, _⟩ => rfl
    | ⟨1, _⟩ => rfl
    | ⟨2, _⟩ => rfl)

/-- The payload at `(r, c, l)`: the `x` block there, times the scale rows at `(r, c)`, plus the shift rows at `(r, c)`. -/
theorem pay_apply (v3 v6 : Vec Ideal S4x256 .f32) (v8 : Vec Ideal S4x256x3136 .f32) (r : Fin 4) (c : Fin 256)
    (l : Fin 3136) : k0_pay1 (F := Ideal) v3 v6 v8 (ix3 r c l) = v8 (ix3 r c l) * v3 (ix2 r c) + v6 (ix2 r c) := by
  have e1 : shapeCast S4x256x3136 v8 shapeCasts_S4x256x3136_S4x256x3136 (ix3 r c l) = v8 (ix3 r c l) :=
    congrFun (shapeCast_self v8 _) _
  have e2 : ∀ v : Vec Ideal S4x256 .f32,
      broadcastTo S4x256x3136 (shapeCast S4x256x1 (shapeCast S4x256 v shapeCasts_S4x256_S4x256) shapeCasts_S4x256_S4x256x1)
        broadcasts_S4x256x1_S4x256x3136 (ix3 r c l) = v (ix2 r c) := fun v =>
    (spread_col _ _ r c l).trans ((cast_col _ _ r c 0).trans (congrFun (shapeCast_self v _) _))
  unfold k0_pay1
  show shapeCast S4x256x3136 v8 _ (ix3 r c l) * broadcastTo S4x256x3136 _ _ (ix3 r c l)
      + broadcastTo S4x256x3136 _ _ (ix3 r c l) = _
  rw [e1, e2 v3, e2 v6]

/-- Four rows of a `[64, 256]` array loaded at row offset `q` read, at `(r, c)`, the array at `(q + r, c)`. -/
theorem ld_rows {Val : EltTy → Type} {e : EltTy} (X : S64x256.Idx → Val e) (off : Fin 2 → Nat) (inb : ∀ a, off a + S4x256.size a ≤ S64x256.size a)
    (q : Nat) (hoff : off = ![q, 0]) (r : Fin 4) (c : Fin 256) (hq : q + r.val < 64) :
    View.ld X (Rect.unit (s := S64x256) off S4x256.size inb) (ix2 r c) = X (ix2 ⟨q + r.val, hq⟩ c) := by
  subst hoff
  show X _ = X _
  refine congrArg X (funext fun a => Fin.ext ?_)
  match a with
  | ⟨0, _⟩ => show q + 1 * r.val = q + r.val; omega
  | ⟨1, _⟩ => show 0 + 1 * c.val = c.val; omega

/-! ## The grid's index maps, decided once -/

/-- At point `t` the body loads its scale and shift rows at row offset `4 t`. -/
theorem off_facts : ∀ t : Fin cfg0.N, k0_off1 (grid0.coords t) = ![4 * t.val, 0] :=
  (by decide +kernel : ∀ t : Fin grid0.N, k0_off1 (grid0.coords t) = ![4 * t.val, 0])

/-- The `x` window and the output window are at block `(t, 0, 0)`; scale and shift are whole (block `(0, 0)`). -/
theorem idx_facts : ∀ t : Fin cfg0.N, win0_0.index t (0 : Fin 3) = t.val ∧ win0_0.index t (1 : Fin 3) = 0
    ∧ win0_0.index t (2 : Fin 3) = 0 ∧ win0_3.index t (0 : Fin 3) = t.val ∧ win0_3.index t (1 : Fin 3) = 0
    ∧ win0_3.index t (2 : Fin 3) = 0 ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The result array after the region -/

variable (m : (ℓ : Loc nD τ sig) → Buf (Elt Ideal) ℓ) (ρ : Dev nD → PrngReg)

/-- Scale-and-shift of a `[64, 256, 3136]` array by `[64, 256]` arrays, index by index: every position of sample `b`,
    channel `c` is multiplied by `S (b, c)` and has `Sh (b, c)` added. -/
def affine (X : S64x256x3136.Idx → EReal) (S Sh : S64x256.Idx → EReal) : S64x256x3136.Idx → EReal :=
  fun j => X j * S (ix2 (j 0 : Fin 64) (j 1 : Fin 256)) + Sh (ix2 (j 0 : Fin 64) (j 1 : Fin 256))

theorem affine_ix3 (X : S64x256x3136.Idx → EReal) (S Sh : S64x256.Idx → EReal) (b : Fin 64) (c : Fin 256) (l : Fin 3136) :
    affine X S Sh (ix3 b c l) = X (ix3 b c l) * S (ix2 b c) + Sh (ix2 b c) := rfl

/-- Element `(r, c, l)` of the `x` window's block at point `t` is the array at sample `4 t + r`. -/
theorem xblk_apply (c : Dev nD) (t : Fin cfg0.N) (r : Fin 4) (cc : Fin 256) (l : Fin 3136) (hq : 4 * t.val + r.val < 64) :
    iblk m c 0 t (ix3 r cc l) = V m c main_v57 (ix3 ⟨4 * t.val + r.val, hq⟩ cc l) := by
  obtain ⟨e00, e01, e02, -⟩ := idx_facts t
  show V m c main_v57 (((cfg0.win 0).blk t).view.emb (ix3 r cc l)) = _
  refine congrArg (V m c main_v57) (funext fun a => Fin.ext ?_)
  match a with
  | ⟨0, _⟩ => show win0_0.index t (0 : Fin 3) * 4 + 1 * r.val = 4 * t.val + r.val; omega
  | ⟨1, _⟩ => show win0_0.index t (1 : Fin 3) * 256 + 1 * cc.val = cc.val; omega
  | ⟨2, _⟩ => show win0_0.index t (2 : Fin 3) * 3136 + 1 * l.val = l.val; omega

/-- The scale window's block is the whole array at every point. -/
theorem sblk_apply (c : Dev nD) (t : Fin cfg0.N) (q : Fin 64) (cc : Fin 256) :
    iblk m c 1 t (ix2 q cc) = V m c main_v52 (ix2 q cc) := by
  obtain ⟨-, -, -, -, -, -, e10, e11, -⟩ := idx_facts t
  show V m c main_v52 (((cfg0.win 1).blk t).view.emb (ix2 q cc)) = _
  refine congrArg (V m c main_v52) (funext fun a => Fin.ext ?_)
  match a with
  | ⟨0, _⟩ => show win0_1.index t (0 : Fin 2) * 64 + 1 * q.val = q.val; omega
  | ⟨1, _⟩ => show win0_1.index t (1 : Fin 2) * 256 + 1 * cc.val = cc.val; omega

/-- The shift window's block is the whole array at every point. -/
theorem hblk_apply (c : Dev nD) (t : Fin cfg0.N) (q : Fin 64) (cc : Fin 256) :
    iblk m c 2 t (ix2 q cc) = V m c main_v56 (ix2 q cc) := by
  obtain ⟨-, -, -, -, -, -, -, -, e20, e21⟩ := idx_facts t
  show V m c main_v56 (((cfg0.win 2).blk t).view.emb (ix2 q cc)) = _
  refine congrArg (V m c main_v56) (funext fun a => Fin.ext ?_)
  match a with
  | ⟨0, _⟩ => show win0_2.index t (0 : Fin 2) * 64 + 1 * q.val = q.val; omega
  | ⟨1, _⟩ => show win0_2.index t (1 : Fin 2) * 256 + 1 * cc.val = cc.val; omega

/-- Element `(r, c, l)` of the output window's block at point `t` sits at sample `4 t + r` of the result array. -/
theorem oblk_emb (t : Fin cfg0.N) (r : Fin 4) (cc : Fin 256) (l : Fin 3136) (hq : 4 * t.val + r.val < 64) :
    ((cfg0.win 3).blk t).view.emb (ix3 r cc l) = ix3 ⟨4 * t.val + r.val, hq⟩ cc l := by
  obtain ⟨-, -, -, e30, e31, e32, -⟩ := idx_facts t
  refine funext fun a => Fin.ext ?_
  match a with
  | ⟨0, _⟩ => show win0_3.index t (0 : Fin 3) * 4 + 1 * r.val = 4 * t.val + r.val; omega
  | ⟨1, _⟩ => show win0_3.index t (1 : Fin 3) * 256 + 1 * cc.val = cc.val; omega
  | ⟨2, _⟩ => show win0_3.index t (2 : Fin 3) * 3136 + 1 * l.val = l.val; omega

/-- WHAT POINT `t` WRITES BACK is block `t` of the scale-and-shift of the three input arrays as the region finds them. -/
theorem flushed_eq (c : Dev nD) (t : Fin cfg0.N) :
    (dats m 0 c).flushed 3 t
      = ((cfg0.win 3).blk t).view.read (Elt Ideal) (affine (V m c main_v57) (V m c main_v52) (V m c main_v56)) := by
  show (cfg0.win 3).cut (grid0.coords t) ((dats m 0 c).after 3 t) = _
  rw [after0_3]
  unfold outsAt0
  rw [out_A]
  have hoff := off_facts t
  have hN : cfg0.N = 16 := N_0
  have ht : t.val < 16 := hN ▸ t.isLt
  funext j
  obtain ⟨r, cc, l, rfl⟩ : ∃ (r : Fin 4) (cc : Fin 256) (l : Fin 3136), j = ix3 r cc l := ⟨j 0, j 1, j 2, eq_ix3 j⟩
  have hq : 4 * t.val + r.val < 64 := by have := r.isLt; omega
  refine (pay_apply _ _ _ r cc l).trans ?_
  rw [ld_rows _ _ _ (4 * t.val) hoff r cc hq, ld_rows _ _ _ (4 * t.val) hoff r cc hq, xblk_apply m c t r cc l hq,
    sblk_apply, hblk_apply]
  show _ = affine _ _ _ (((cfg0.win 3).blk t).view.emb (ix3 r cc l))
  rw [oblk_emb t r cc l hq, affine_ix3]

/-- An index of the result array is in point `t`'s block iff each coordinate is in the block's range on its axis. -/
theorem mem_blk (t : Fin cfg0.N) (i : S64x256x3136.Idx) :
    i ∈ ((cfg0.win 3).blk t).view.set ↔ ∀ a : Fin 3, win0_3.index t a * S4x256x3136.size a ≤ (i a).val
      ∧ (i a).val < win0_3.index t a * S4x256x3136.size a + S4x256x3136.size a := by
  show i ∈ ((View.whole main_v58).slice (win0_3.rect t)).set ↔ _
  rw [View.set_slice_whole, Rect.mem_set_unit]
  exact Iff.rfl

/-- Every index of the result array is in the block of the point `b / 4`. -/
theorem cover (i : S64x256x3136.Idx) : ∃ t : Fin cfg0.N, (cfg0.win 3).flush t = true ∧ i ∈ ((cfg0.win 3).blk t).view.set := by
  have hN : cfg0.N = 16 := N_0
  have h0 : (i 0).val < 64 := (i 0).isLt
  have h1 : (i 1).val < 256 := (i 1).isLt
  have h2 : (i 2).val < 3136 := (i 2).isLt
  refine ⟨⟨(i 0).val / 4, by rw [hN]; omega⟩, flush0_3 _, ?_⟩
  rw [mem_blk]
  obtain ⟨-, -, -, e30, e31, e32, -⟩ := idx_facts ⟨(i 0).val / 4, by rw [hN]; omega⟩
  intro a
  match a with
  | ⟨0, _⟩ =>
    show win0_3.index ⟨(i 0).val / 4, _⟩ (0 : Fin 3) * 4 ≤ (i 0).val ∧ (i 0).val < win0_3.index ⟨(i 0).val / 4, _⟩ (0 : Fin 3) * 4 + 4
    rw [e30]; show (i 0).val / 4 * 4 ≤ (i 0).val ∧ (i 0).val < (i 0).val / 4 * 4 + 4; omega
  | ⟨1, _⟩ =>
    show win0_3.index ⟨(i 0).val / 4, _⟩ (1 : Fin 3) * 256 ≤ (i 1).val ∧ (i 1).val < win0_3.index ⟨(i 0).val / 4, _⟩ (1 : Fin 3) * 256 + 256
    rw [e31]; omega
  | ⟨2, _⟩ =>
    show win0_3.index ⟨(i 0).val / 4, _⟩ (2 : Fin 3) * 3136 ≤ (i 2).val ∧ (i 2).val < win0_3.index ⟨(i 0).val / 4, _⟩ (2 : Fin 3) * 3136 + 3136
    rw [e32]; omega

/-- THE RESULT ARRAY after the region: the scale-and-shift of the three input arrays as the region finds them. -/
theorem final (c : Dev nD) :
    (dats m 0 c).arrAt 3 cfg0.N = affine (V m c main_v57) (V m c main_v52) (V m c main_v56) :=
  (dats m 0 c).arrAt_eq_of_cover 3 _ (fun t _ => flushed_eq m c t) cover

end Cert.KernelIdeal.Blocks

end
-- ==== Proof.KernelRun.lean ====
/-
  The kernel's program, run: at the ideal instance every weakly fair execution ends with the returned array at ONE
  function of the launch contents of the arguments — `x` with its spatial axes flattened, scaled and shifted per sample
  and channel by the host-computed scale and shift, and unflattened — and with the arguments unchanged.
-/
import proofs.«137653_j76192719831905_2_alg».proof.Proof.KernelHost
import proofs.«137653_j76192719831905_2_alg».proof.Proof.KernelBlocks

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.HostSide

variable (m : (ℓ : Loc nD τ sig) → Buf (Elt Ideal) ℓ) (ρ : Dev nD → PrngReg)

/-- What the program returns, as a function of the arguments' launch contents. -/
def result (c : Dev nD) : S64x256x56x56.Idx → EReal :=
  shapeCast S64x256x56x56
    (Blocks.affine
      (shapeCast S64x256x3136 (m ((c.tc : Thread nD τ).loc main_arg0)) shapeCasts_S64x256x56x56_S64x256x3136)
      (scaleOf (m ((c.tc : Thread nD τ).loc main_arg7)) (varOf m c))
      (shiftOf (m ((c.tc : Thread nD τ).loc main_arg8)) (meanOf m c)
        (scaleOf (m ((c.tc : Thread nD τ).loc main_arg7)) (varOf m c))))
    shapeCasts_S64x256x3136_S64x256x56x56

/-- The host lines after the region return it: the region's result array is the scale-and-shift of what the region
    found, and what it found are the host lines before it applied to the launch contents. -/
theorem result_eq (c : Dev nD) :
    Pipeline.afterTail₀ cfgs (dats m) 0 (V0 m) [hostOps1] c main_v59 = result m c := by
  rw [tail_eq, Blocks.final, V_x, V_scale, V_shift]
  rfl

/-- The run, read. -/
theorem run : θ_run defs (onTc (τ := τ) (main (F := Ideal))) ⟨m, fun _ => 0, ρ⟩ fun r => ∀ c : Dev nD,
      r.2.mem ((c.tc : Thread nD τ).loc main_v59) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v59 (Pipeline.mem_restRefs_of main_v59 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.RunValue

end
-- ==== Proof.KernelAtIndex.lean ====
/-
  The kernel's program read at one index, at the ideal instance.

  The scale and shift arrays at sample `b`, channel `c` are `weight c · rsqrt (var (b, c) + ε)` and
  `bias c − mean (b, c) · scale (b, c)`; flattening the two spatial axes of `x`, scaling and shifting, and splitting the
  axis back reads, at `(b, c, h, w)`, `x (b, c, h, w) · scale (b, c) + shift (b, c)`: position `(h, w)` of a `56 × 56`
  plane is position `56 h + w` of its flattening, in both directions.
-/
import proofs.«137653_j76192719831905_2_alg».proof.Proof.KernelHost
import proofs.«137653_j76192719831905_2_alg».proof.Proof.KernelBlocks
import Idealize.ShloMosaic.Lib.ValueIdx
import Idealize.ShloMosaic.PureOps.Ideal

noncomputable section

open Idealize.ShloMosaic Idealize.ShloMosaic.TcCoe Idealize.ShloMosaic.ValueIdx

namespace Cert.KernelIdeal.AtIndex

open Cert.KernelIdeal Cert.KernelIdeal.Gen Cert.KernelIdeal.HostSide

/-- A channel vector `[256]` given a leading unit axis and spread over the 64 samples reads, at `(b, c)`, the vector at `c`. -/
theorem chan_apply (v : FVec Ideal S256 .f32) (b : Fin 64) (c : Fin 256) :
    broadcastInDim S64x256 ![0, 1] bcast_S1x256_S64x256_0_1 (broadcastInDim S1x256 ![1] bcast_S256_S1x256_1 v) (ix2 b c)
      = v (ix1 c) :=
  (broadcastInDim_apply _ bcast_S1x256_S64x256_0_1 _ (ix2 b c) (ix2 (0 : Fin 1) c) (fun a => by
    match a with
    | ⟨0, _⟩ => show (0 : Nat) = if (1 : Nat) = 1 then 0 else b.val; rw [if_pos rfl]
    | ⟨1, _⟩ => show c.val = if (256 : Nat) = 1 then 0 else c.val; rw [if_neg (by decide)])).trans
  (broadcastInDim_apply _ bcast_S256_S1x256_1 v (ix2 (0 : Fin 1) c) (ix1 c) (fun a => by
    match a with
    | ⟨0, _⟩ => show c.val = if (256 : Nat) = 1 then 0 else c.val; rw [if_neg (by decide)]))

/-- The scale at `(b, c)`. -/
theorem scale_apply (w : FVec Ideal S256 .f32) (var : FVec Ideal S64x256 .f32) (b : Fin 64) (c : Fin 256) :
    scaleOf (F := Ideal) w var (ix2 b c) = w (ix1 c) * Ideal.rsqrt (var (ix2 b c) + Ideal.ofBits .f32 0x3727C5AC#32) := by
  unfold scaleOf
  show broadcastInDim S64x256 ![0, 1] bcast_S1x256_S64x256_0_1 (broadcastInDim S1x256 ![1] bcast_S256_S1x256_1 w) (ix2 b c)
      * Ideal.rsqrt (var (ix2 b c) + Ideal.ofBits .f32 0x3727C5AC#32) = _
  rw [chan_apply]

/-- The shift at `(b, c)`. -/
theorem shift_apply (bias : FVec Ideal S256 .f32) (mean scale : FVec Ideal S64x256 .f32) (b : Fin 64) (c : Fin 256) :
    shiftOf (F := Ideal) bias mean scale (ix2 b c) = bias (ix1 c) - mean (ix2 b c) * scale (ix2 b c) := by
  unfold shiftOf
  show broadcastInDim S64x256 ![0, 1] bcast_S1x256_S64x256_0_1 (broadcastInDim S1x256 ![1] bcast_S256_S1x256_1 bias) (ix2 b c)
      - mean (ix2 b c) * scale (ix2 b c) = _
  rw [chan_apply]

/-- Flatten the spatial axes, scale and shift per sample and channel, split the axis back: at `(b, c, h, w)` that is the
    input there, times the scale at `(b, c)`, plus the shift at `(b, c)`. -/
theorem out_apply (x : FVec Ideal S64x256x56x56 .f32) (S Sh : S64x256.Idx → EReal)
    (h1 : S64x256x56x56.ShapeCasts S64x256x3136) (h2 : S64x256x3136.ShapeCasts S64x256x56x56)
    (b : Fin 64) (c : Fin 256) (h w : Fin 56) :
    shapeCast S64x256x56x56 (Blocks.affine (shapeCast S64x256x3136 x h1) S Sh) h2 (ix4 b c h w)
      = x (ix4 b c h w) * S (ix2 b c) + Sh (ix2 b c) := by
  have hl : h.val * 56 + w.val < 3136 := by have := h.isLt; have := w.isLt; omega
  have e : shapeCast S64x256x3136 x h1 (ix3 b c (⟨h.val * 56 + w.val, hl⟩ : Fin 3136)) = x (ix4 b c h w) :=
    shapeCast_apply x h1 _ _ (by
      rw [Shape.rowMajor_val_four, Shape.rowMajor_val_three]
      show ((b.val * 256 + c.val) * 56 + h.val) * 56 + w.val = (b.val * 256 + c.val) * 3136 + (h.val * 56 + w.val)
      omega)
  refine (shapeCast_apply _ h2 (ix4 b c h w) (ix3 b c (⟨h.val * 56 + w.val, hl⟩ : Fin 3136)) (by
      rw [Shape.rowMajor_val_three, Shape.rowMajor_val_four]
      show (b.val * 256 + c.val) * 3136 + (h.val * 56 + w.val) = ((b.val * 256 + c.val) * 56 + h.val) * 56 + w.val
      omega)).trans ?_
  rw [Blocks.affine_ix3, e]

end Cert.KernelIdeal.AtIndex

end
-- ==== Proof.RefRead.lean ====
/-
  The reference program read at one index, and the finiteness of its per-sample mean and variance.

  The reference is an eval-mode class-conditional batch normalisation. For a sample `b` and a channel `c` it forms a
  mean `m b c` and a variance `v b c` (stages `val_main_v43` and `val_main_v46` of the generated reading of the
  program), each a select between a blend `0.7 · global + 0.3 · (class row gathered at the sample's label)` (the
  variance blend floored at `0.1`) and the global statistic alone, and answers
      (x b c h w - m b c) / √(v b c + ε) · weight c + bias c.
  `ref_apply` is that formula at the ideal instance (the extended reals). `mean_finite` and `var_pos` say that on finite
  statistics (the global variance non-negative) `m b c` and `v b c` are finite and `v b c + ε` is positive, whatever the
  labels and the counts are: a gathered element is SOME element of the table it is gathered from, and both branches of
  each select are finite. The four float literals of the program are evaluated here, once each, as the dyadic rationals
  their words denote.
-/
import proofs.«137653_j76192719831905_2_alg».proof.Proof.Gen.ReferenceIdeal.Read
import Idealize.ShloMosaic.Lib.ValueIdx
import Idealize.ShloMosaic.PureOps.Ideal

noncomputable section

namespace Cert.RefRead

open Idealize.ShloMosaic Idealize.ShloMosaic.ValueIdx Cert.ReferenceIdeal Cert.ReferenceIdeal.Read

/-! ## The four literals as extended reals

An f32 word with sign 0, exponent field `E` and fraction field `T` denotes `(2^23 + T) · 2^(E - 150)`. -/

/-- `0x3F333333` (printed 0.699999988): `E = 126`, `T = 3355443`, so `11744051 / 2^24`. -/
theorem lit_blend_global : Ideal.ofBits .f32 0x3F333333#32 = ((11744051 / 16777216 : ℝ) : EReal) := by
  simp [Ideal.ofBits, Ideal.ieee, -EReal.coe_mul]; norm_num
/-- `0x3E99999A` (printed 0.3): `E = 125`, `T = 1677722`, so `10066330 / 2^25 = 5033165 / 2^24`. -/
theorem lit_blend_class : Ideal.ofBits .f32 0x3E99999A#32 = ((5033165 / 16777216 : ℝ) : EReal) := by
  simp [Ideal.ofBits, Ideal.ieee, -EReal.coe_mul]; norm_num
/-- `0x3DCCCCCD` (printed 0.1): `E = 123`, `T = 5033165`, so `13421773 / 2^27`. -/
theorem lit_floor : Ideal.ofBits .f32 0x3DCCCCCD#32 = ((13421773 / 134217728 : ℝ) : EReal) := by
  simp [Ideal.ofBits, Ideal.ieee, -EReal.coe_mul]; norm_num
/-- `0x3727C5AC` (printed 9.99999974E-6, the ε under the square root): `E = 110`, `T = 2606508`, so `10995116 / 2^40`. -/
theorem lit_eps : Ideal.ofBits .f32 0x3727C5AC#32 = ((10995116 / 1099511627776 : ℝ) : EReal) := by
  simp [Ideal.ofBits, Ideal.ieee, -EReal.coe_mul]; norm_num

/-! ## Finite extended reals are closed under product, sum and maximum -/

/-- A product of two finite extended reals is finite: it is the product of the two reals. -/
theorem fin_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩
/-- A sum of two finite extended reals is finite: it is the sum of the two reals. -/
theorem fin_add {a b : EReal} (ha : a ≠ ⊤ ∧ a ≠ ⊥) (hb : b ≠ ⊤ ∧ b ≠ ⊥) : a + b ≠ ⊤ ∧ a + b ≠ ⊥ := by
  lift a to ℝ using ha
  lift b to ℝ using hb
  rw [← EReal.coe_add]
  exact ⟨EReal.coe_ne_top _, EReal.coe_ne_bot _⟩
/-- A maximum of two finite extended reals is finite: it is one of the two. -/
theorem fin_max {a b : EReal} (ha : a ≠ ⊤ ∧ a ≠ ⊥) (hb : b ≠ ⊤ ∧ b ≠ ⊥) : max a b ≠ ⊤ ∧ max a b ≠ ⊥ := by
  rcases max_choice a b with h | h <;> rw [h] <;> assumption

/-- The global blend weight is a finite real. -/
theorem lit_blend_global_finite :
    Ideal.ofBits .f32 0x3F333333#32 ≠ ⊤ ∧ Ideal.ofBits .f32 0x3F333333#32 ≠ ⊥ := by
  rw [lit_blend_global]; exact ⟨EReal.coe_ne_top _, EReal.coe_ne_bot _⟩
/-- The class blend weight is a finite real. -/
theorem lit_blend_class_finite :
    Ideal.ofBits .f32 0x3E99999A#32 ≠ ⊤ ∧ Ideal.ofBits .f32 0x3E99999A#32 ≠ ⊥ := by
  rw [lit_blend_class]; exact ⟨EReal.coe_ne_top _, EReal.coe_ne_bot _⟩
/-- The variance floor is a finite real … -/
theorem lit_floor_finite :
    Ideal.ofBits .f32 0x3DCCCCCD#32 ≠ ⊤ ∧ Ideal.ofBits .f32 0x3DCCCCCD#32 ≠ ⊥ := by
  rw [lit_floor]; exact ⟨EReal.coe_ne_top _, EReal.coe_ne_bot _⟩
/-- … and positive. -/
theorem lit_floor_pos : (0 : EReal) < Ideal.ofBits .f32 0x3DCCCCCD#32 := by
  rw [lit_floor]; exact EReal.coe_pos.mpr (by norm_num)
/-- ε is a finite real … -/
theorem eps_finite : Ideal.ofBits .f32 0x3727C5AC#32 ≠ ⊤ ∧ Ideal.ofBits .f32 0x3727C5AC#32 ≠ ⊥ := by
  rw [lit_eps]; exact ⟨EReal.coe_ne_top _, EReal.coe_ne_bot _⟩
/-- … and positive. -/
theorem eps_pos : (0 : EReal) < Ideal.ofBits .f32 0x3727C5AC#32 := by
  rw [lit_eps]; exact EReal.coe_pos.mpr (by norm_num)

/-! ## The result at `(b, c, h, w)`

The broadcasts `[64,256] → [64,256,1,1] → [64,256,56,56]` read the statistic at `(b, c)`, and the broadcasts
`[256] → [1,256,1,1] → [64,256,56,56]` read weight and bias at `c`. -/

/-- The mean's two broadcasts read `(b, c, h, w)` at `(b, c)`. -/
theorem idx_mean (b : Fin 64) (c : Fin 256) (h w : Fin 56) :
    idx_main_v47 (idx_main_v48 (ix4 b c h w)) = ix2 b c :=
  funext fun a => Fin.ext (by match a with | ⟨0, _⟩ => rfl | ⟨1, _⟩ => rfl)
/-- The standard deviation's two broadcasts read `(b, c, h, w)` at `(b, c)`. -/
theorem idx_std (b : Fin 64) (c : Fin 256) (h w : Fin 56) :
    idx_main_v53 (idx_main_v54 (ix4 b c h w)) = ix2 b c :=
  funext fun a => Fin.ext (by match a with | ⟨0, _⟩ => rfl | ⟨1, _⟩ => rfl)
/-- The weight's two broadcasts read `(b, c, h, w)` at `c`. -/
theorem idx_weight (b : Fin 64) (c : Fin 256) (h w : Fin 56) :
    idx_main_v56 (idx_main_v57 (ix4 b c h w)) = ix1 c :=
  funext fun a => Fin.ext (by match a with | ⟨0, _⟩ => rfl)
/-- The bias's two broadcasts read `(b, c, h, w)` at `c`. -/
theorem idx_bias (b : Fin 64) (c : Fin 256) (h w : Fin 56) :
    idx_main_v59 (idx_main_v60 (ix4 b c h w)) = ix1 c :=
  funext fun a => Fin.ext (by match a with | ⟨0, _⟩ => rfl)

/-- THE REFERENCE AT AN INDEX: `(x - mean) / √(var + ε) · weight + bias`, the mean and the variance read at the sample
    and the channel, weight and bias at the channel. -/
theorem ref_apply
    (x0 : (⟨S64x256x56x56, .f32⟩ : BufTy).Contents (Elt Ideal)) (x1 : (⟨S64, .i32⟩ : BufTy).Contents (Elt Ideal))
    (x2 x3 : (⟨S256, .f32⟩ : BufTy).Contents (Elt Ideal)) (x4 x5 : (⟨S1000x256, .f32⟩ : BufTy).Contents (Elt Ideal))
    (x6 : (⟨S1000, .i32⟩ : BufTy).Contents (Elt Ideal)) (x7 x8 : (⟨S256, .f32⟩ : BufTy).Contents (Elt Ideal))
    (b : Fin 64) (c : Fin 256) (h w : Fin 56) :
    val_main_v61 (F := Ideal) x0 x1 x2 x3 x4 x5 x6 x7 x8 (ix4 b c h w)
      = Ideal.div (x0 (ix4 b c h w) - val_main_v43 (F := Ideal) x1 x2 x4 x6 (ix2 b c))
          (Ideal.sqrt (val_main_v46 (F := Ideal) x1 x3 x5 x6 (ix2 b c) + Ideal.ofBits .f32 0x3727C5AC#32))
        * x7 (ix1 c) + x8 (ix1 c) := by
  rw [val_main_v61_apply, val_main_v58_apply, val_main_v60_apply, val_main_v59_apply, val_main_v55_apply,
    val_main_v57_apply, val_main_v56_apply, val_main_v49_apply, val_main_v54_apply, val_main_v53_apply,
    val_main_v52_apply, val_main_v51_apply, val_main_v50_apply, val_main_cst_11_apply, val_main_v48_apply,
    val_main_v47_apply, idx_mean, idx_std, idx_weight, idx_bias]
  simp only [Ideal.addf_def, Ideal.mulf_def, Ideal.subf_def, Ideal.hostDivf_def, Ideal.hostUnary_sqrt_def,
    Ideal.ofBits_def]

/-! ## The gathered class rows

A gather reads, at each result index, the operand at an index computed from the start indices: whatever that index
is, the element is one of the operand's. -/

/-- The gathered class mean at `i` is an element of the class-mean table. -/
theorem gathered_mean (x1 : (⟨S64, .i32⟩ : BufTy).Contents (Elt Ideal))
    (x4 : (⟨S1000x256, .f32⟩ : BufTy).Contents (Elt Ideal)) (i : S64x256.Idx) :
    val_main_v20 (F := Ideal) x1 x4 i
      = x4 (gather_S1000x256_S64x1_S64x256_1_0_n_n_0_1_1256.operandIdx i (val_main_v19 (F := Ideal) x1)) := rfl
/-- The gathered class variance at `i` is an element of the class-variance table. -/
theorem gathered_var (x1 : (⟨S64, .i32⟩ : BufTy).Contents (Elt Ideal))
    (x5 : (⟨S1000x256, .f32⟩ : BufTy).Contents (Elt Ideal)) (i : S64x256.Idx) :
    val_main_v34 (F := Ideal) x1 x5 i
      = x5 (gather_S1000x256_S64x1_S64x256_1_0_n_n_0_1_1256.operandIdx i (val_main_v33 (F := Ideal) x1)) := rfl

/-! ## The mean is finite, the variance finite and non-negative -/

/-- THE MEAN IS FINITE on finite global and class means: it is either `0.7 · g + 0.3 · (a class-mean element)`, a sum of
    products of finite reals, or the global mean `g` itself. -/
theorem mean_finite (x1 : (⟨S64, .i32⟩ : BufTy).Contents (Elt Ideal)) (x2 : (⟨S256, .f32⟩ : BufTy).Contents (Elt Ideal))
    (x4 : (⟨S1000x256, .f32⟩ : BufTy).Contents (Elt Ideal)) (x6 : (⟨S1000, .i32⟩ : BufTy).Contents (Elt Ideal))
    (h2 : ∀ i, x2 i ≠ ⊤ ∧ x2 i ≠ ⊥) (h4 : ∀ i, x4 i ≠ ⊤ ∧ x4 i ≠ ⊥) (b : Fin 64) (c : Fin 256) :
    val_main_v43 (F := Ideal) x1 x2 x4 x6 (ix2 b c) ≠ ⊤ ∧ val_main_v43 (F := Ideal) x1 x2 x4 x6 (ix2 b c) ≠ ⊥ := by
  rw [val_main_v43_apply]
  unfold Scalar.select
  split
  · rw [val_main_v24_apply, val_main_v23_apply, val_main_v13_apply, val_main_v12_apply, val_main_cst_apply,
      val_main_v11_apply, val_main_v22_apply, val_main_v21_apply, val_main_cst_5_apply, gathered_mean]
    simp only [Ideal.addf_def, Ideal.mulf_def, Ideal.ofBits_def]
    exact fin_add (fin_mul lit_blend_global_finite (h2 _)) (fin_mul lit_blend_class_finite (h4 _))
  · rw [val_main_call0_v1_apply, val_main_v42_apply]
    exact h2 _

/-- The variance is finite and non-negative on finite global and class variances, the global one non-negative: it is
    either `max (0.7 · g + 0.3 · (a class-variance element)) 0.1`, finite and at least `0.1`, or the global variance
    `g` itself. -/
theorem var_finite_nonneg (x1 : (⟨S64, .i32⟩ : BufTy).Contents (Elt Ideal))
    (x3 : (⟨S256, .f32⟩ : BufTy).Contents (Elt Ideal)) (x5 : (⟨S1000x256, .f32⟩ : BufTy).Contents (Elt Ideal))
    (x6 : (⟨S1000, .i32⟩ : BufTy).Contents (Elt Ideal))
    (h3 : ∀ i, x3 i ≠ ⊤ ∧ x3 i ≠ ⊥) (h5 : ∀ i, x5 i ≠ ⊤ ∧ x5 i ≠ ⊥) (hpos : ∀ i, (0 : EReal) ≤ x3 i)
    (b : Fin 64) (c : Fin 256) :
    (val_main_v46 (F := Ideal) x1 x3 x5 x6 (ix2 b c) ≠ ⊤ ∧ val_main_v46 (F := Ideal) x1 x3 x5 x6 (ix2 b c) ≠ ⊥)
      ∧ 0 ≤ val_main_v46 (F := Ideal) x1 x3 x5 x6 (ix2 b c) := by
  rw [val_main_v46_apply]
  unfold Scalar.select
  split
  · rw [val_main_v40_apply, val_main_v38_apply, val_main_v37_apply, val_main_v27_apply, val_main_v26_apply,
      val_main_cst_6_apply, val_main_v25_apply, val_main_v36_apply, val_main_v35_apply, val_main_cst_9_apply,
      gathered_var, val_main_v39_apply, val_main_cst_10_apply]
    simp only [Ideal.addf_def, Ideal.mulf_def, Ideal.maximumf_def, Ideal.ofBits_def]
    exact ⟨fin_max (fin_add (fin_mul lit_blend_global_finite (h3 _)) (fin_mul lit_blend_class_finite (h5 _)))
      lit_floor_finite, le_max_of_le_right lit_floor_pos.le⟩
  · rw [val_main_call1_v1_apply, val_main_v45_apply]
    exact ⟨h3 _, hpos _⟩

/-- THE VARIANCE IS FINITE AND `var + ε` POSITIVE: `0 < ε ≤ var + ε` since `0 ≤ var`. -/
theorem var_pos (x1 : (⟨S64, .i32⟩ : BufTy).Contents (Elt Ideal)) (x3 : (⟨S256, .f32⟩ : BufTy).Contents (Elt Ideal))
    (x5 : (⟨S1000x256, .f32⟩ : BufTy).Contents (Elt Ideal)) (x6 : (⟨S1000, .i32⟩ : BufTy).Contents (Elt Ideal))
    (h3 : ∀ i, x3 i ≠ ⊤ ∧ x3 i ≠ ⊥) (h5 : ∀ i, x5 i ≠ ⊤ ∧ x5 i ≠ ⊥) (hpos : ∀ i, (0 : EReal) ≤ x3 i)
    (b : Fin 64) (c : Fin 256) :
    (val_main_v46 (F := Ideal) x1 x3 x5 x6 (ix2 b c) ≠ ⊤ ∧ val_main_v46 (F := Ideal) x1 x3 x5 x6 (ix2 b c) ≠ ⊥)
      ∧ 0 < val_main_v46 (F := Ideal) x1 x3 x5 x6 (ix2 b c) + Ideal.ofBits .f32 0x3727C5AC#32 :=
  ⟨(var_finite_nonneg x1 x3 x5 x6 h3 h5 hpos b c).1,
    eps_pos.trans_le (le_add_of_nonneg_left (var_finite_nonneg x1 x3 x5 x6 h3 h5 hpos b c).2)⟩

end Cert.RefRead

end
-- ==== Proof.AffineLaw.lean ====
/-
  The one algebraic law of this certificate, on the extended reals.

  A batch-norm in evaluation mode maps `x` to `(x - μ) / √(v + ε) · w + β`.  The kernel instead precomputes a
  scale `s = w · (v + ε)^(-1/2)` and a shift `β - μ · s` and maps `x` to `x · s + (β - μ · s)`.  For finite
  `x, μ, w, β` and a finite `v` with `0 < v + ε` both are the real number `(x - μ) · w / √(v + ε) + β`: the square
  root is a positive real, the quotient by it is the product with its inverse, and the rest is distributivity in `ℝ`.
  Finiteness is needed: distributivity fails at the infinities of the extended reals.
-/
import Idealize.ShloMosaic.PureOps.Ideal

noncomputable section

namespace Cert.AffineLaw

open Idealize.ShloMosaic

/-- On the reals: scale-and-shift is normalise-then-affine, when the variance term is positive. -/
theorem real_law (x μ w β s : ℝ) (hs : 0 < s) :
    x * (w * (Real.sqrt s)⁻¹) + (β - μ * (w * (Real.sqrt s)⁻¹)) = (x - μ) * (1 / Real.sqrt s) * w + β := by
  have h : Real.sqrt s ≠ 0 := (Real.sqrt_pos.mpr hs).ne'
  field_simp
  ring

/-- On the extended reals, at finite arguments with `0 < v + ε`: the kernel's `x · s + (β - μ · s)` with
    `s = w · rsqrt (v + ε)` is the reference's `(x - μ) / sqrt (v + ε) · w + β`. -/
theorem ereal_law {x μ w β v e : EReal}
    (hx : x ≠ ⊤ ∧ x ≠ ⊥) (hμ : μ ≠ ⊤ ∧ μ ≠ ⊥) (hw : w ≠ ⊤ ∧ w ≠ ⊥) (hβ : β ≠ ⊤ ∧ β ≠ ⊥)
    (hv : v ≠ ⊤ ∧ v ≠ ⊥) (he : e ≠ ⊤ ∧ e ≠ ⊥) (hpos : 0 < v + e) :
    x * (w * Ideal.rsqrt (v + e)) + (β - μ * (w * Ideal.rsqrt (v + e)))
      = Ideal.div (x - μ) (Ideal.sqrt (v + e)) * w + β := by
  lift x to ℝ using hx
  lift μ to ℝ using hμ
  lift w to ℝ using hw
  lift β to ℝ using hβ
  lift v to ℝ using hv
  lift e to ℝ using he
  rw [← EReal.coe_add] at hpos ⊢
  have hs : 0 < v + e := by exact_mod_cast hpos
  have hsq : Real.sqrt (v + e) ≠ 0 := (Real.sqrt_pos.mpr hs).ne'
  rw [Ideal.rsqrt_coe, Ideal.sqrt_coe, if_neg (not_lt.mpr hs.le), if_neg hs.ne', if_neg (not_lt.mpr hs.le),
    Ideal.div_coe hsq]
  rw [← EReal.coe_sub, ← EReal.coe_mul, ← EReal.coe_mul, ← EReal.coe_mul, ← EReal.coe_sub, ← EReal.coe_add,
    ← EReal.coe_mul, ← EReal.coe_mul, ← EReal.coe_add]
  exact congrArg _ (real_law x μ w β (v + e) hs)

end Cert.AffineLaw

end
-- ==== Proof.Bridge.lean ====
/-
  The two programs compute one function.

  At sample `b`, channel `c`, position `(h, w)` the kernel's program returns `x · s + (β − μ · s)` with
  `s = w · rsqrt (v + ε)`, and the reference `(x − μ) / sqrt (v + ε) · w + β`, where `μ = mean (b, c)` and
  `v = var (b, c)` are the SAME two arrays on both sides (the host operations that compute them are the same, in the
  same order, with the same literals).  On finite inputs with a non-negative global variance, `μ` and `v` are finite
  and `v + ε` is positive, so the two are equal extended reals by the one law of Proof/AffineLaw.lean.
-/
import proofs.«137653_j76192719831905_2_alg».proof.Proof.KernelAtIndex
import proofs.«137653_j76192719831905_2_alg».proof.Proof.KernelRun
import proofs.«137653_j76192719831905_2_alg».proof.Proof.RefRead
import proofs.«137653_j76192719831905_2_alg».proof.Proof.AffineLaw

noncomputable section

open Idealize.ShloMosaic Idealize.ShloMosaic.TcCoe Idealize.SL.Sem Idealize.ShloMosaic.ValueIdx

namespace Cert.Bridge

open Cert.KernelIdeal Cert.KernelIdeal.HostSide

variable (m : (ℓ : Loc nD τ sig) → Buf (Elt Ideal) ℓ) (c : Dev nD)

/-! The nine argument arrays of the kernel's program at launch, as vectors over their literal shapes. -/

abbrev arg0 : FVec Ideal S64x256x56x56 .f32 := m ((c.tc : Thread nD τ).loc main_arg0)
abbrev arg1 : IVec S64 32 := m ((c.tc : Thread nD τ).loc main_arg1)
abbrev arg2 : FVec Ideal S256 .f32 := m ((c.tc : Thread nD τ).loc main_arg2)
abbrev arg3 : FVec Ideal S256 .f32 := m ((c.tc : Thread nD τ).loc main_arg3)
abbrev arg4 : FVec Ideal S1000x256 .f32 := m ((c.tc : Thread nD τ).loc main_arg4)
abbrev arg5 : FVec Ideal S1000x256 .f32 := m ((c.tc : Thread nD τ).loc main_arg5)
abbrev arg6 : IVec S1000 32 := m ((c.tc : Thread nD τ).loc main_arg6)
abbrev arg7 : FVec Ideal S256 .f32 := m ((c.tc : Thread nD τ).loc main_arg7)
abbrev arg8 : FVec Ideal S256 .f32 := m ((c.tc : Thread nD τ).loc main_arg8)

set_option maxHeartbeats 4000000 in
/-- On finite float arguments with a non-negative global variance, what the kernel's program returns is the reference's
    result stage read at the same argument arrays. -/
theorem result_eq_ref
    (h0 : ∀ i, arg0 m c i ≠ ⊤ ∧ arg0 m c i ≠ ⊥) (h2 : ∀ i, arg2 m c i ≠ ⊤ ∧ arg2 m c i ≠ ⊥)
    (h3 : ∀ i, arg3 m c i ≠ ⊤ ∧ arg3 m c i ≠ ⊥) (h4 : ∀ i, arg4 m c i ≠ ⊤ ∧ arg4 m c i ≠ ⊥)
    (h5 : ∀ i, arg5 m c i ≠ ⊤ ∧ arg5 m c i ≠ ⊥) (h7 : ∀ i, arg7 m c i ≠ ⊤ ∧ arg7 m c i ≠ ⊥)
    (h8 : ∀ i, arg8 m c i ≠ ⊤ ∧ arg8 m c i ≠ ⊥) (hpos : ∀ i, (0 : EReal) ≤ arg3 m c i) :
    Cert.KernelIdeal.RunValue.result m c
      = Cert.ReferenceIdeal.Read.val_main_v61 (F := Ideal) (arg0 m c) (arg1 m c) (arg2 m c) (arg3 m c) (arg4 m c) (arg5 m c) (arg6 m c) (arg7 m c) (arg8 m c) := by
  funext i
  obtain ⟨b, ch, h, w, rfl⟩ : ∃ (b : Fin 64) (ch : Fin 256) (h w : Fin 56), i = ix4 b ch h w :=
    ⟨i 0, i 1, i 2, i 3, eq_ix4 i⟩
  unfold Cert.KernelIdeal.RunValue.result
  rw [Cert.KernelIdeal.AtIndex.out_apply, Cert.KernelIdeal.AtIndex.shift_apply, Cert.KernelIdeal.AtIndex.scale_apply,
    Cert.RefRead.ref_apply]
  have hv := Cert.RefRead.var_pos (arg1 m c) (arg3 m c) (arg5 m c) (arg6 m c) h3 h5 hpos b ch
  exact Cert.AffineLaw.ereal_law (h0 _) (Cert.RefRead.mean_finite (arg1 m c) (arg2 m c) (arg4 m c) (arg6 m c) h2 h4 b ch) (h7 _) (h8 _)
    hv.1 Cert.RefRead.eps_finite hv.2

end Cert.Bridge

end
-- ==== Proof.lean ====
/-
  Class-conditional batch normalisation in evaluation mode, `x : f32[64, 256, 56, 56]`: a Pallas kernel against jnp.

  Both programs first form, per sample `b` and channel `c`, a mean `μ` and a variance `v`: the global running
  statistic, or — when the sample's class has been seen at least 100 times — the blend `0.7 · global + 0.3 · class` (the
  variance blend floored at `0.1`).  The reference then returns `(x − μ) / sqrt (v + ε) · w + β`.  The kernel's program
  instead computes on the host a scale `s = w · rsqrt (v + ε)` and a shift `β − μ · s`, flattens the two spatial axes,
  and in one region over sixteen blocks of four samples returns `x · s + (β − μ · s)`.

  The two agree on the extended reals when every float input is finite and the global running variance is
  non-negative: then `μ` and `v` are finite and `v + ε > 0` (the class branch is at least `0.1`, the global branch at
  least `0`), the square root is a positive real, and the claim is distributivity in `ℝ` (Proof/AffineLaw.lean).
  Without the sign condition the reference divides by the square root of a negative number.

  The parts: Proof/PreFacts.lean reads the precondition back as facts about entries; Proof/KernelBlocks.lean reads the
  region's result array as one function of its three input arrays; Proof/KernelHost.lean states what the host lines
  before and after the region compute; Proof/KernelRun.lean restates the program's run with the returned array at that
  function of the arguments; Proof/KernelAtIndex.lean and Proof/RefRead.lean read both programs at one index;
  Proof/Bridge.lean joins them.  The three frame claims are the generated frame runs; nothing was rewritten by the
  idealisation, so `preserves` is `True`.
-/
import proofs.«137653_j76192719831905_2_alg».proof.Defs
import proofs.«137653_j76192719831905_2_alg».proof.Proof.Gen.Kernel
import proofs.«137653_j76192719831905_2_alg».proof.Proof.Gen.Kernel.Frame
import proofs.«137653_j76192719831905_2_alg».proof.Proof.Gen.KernelIdeal
import proofs.«137653_j76192719831905_2_alg».proof.Proof.Gen.KernelIdeal.Frame
import proofs.«137653_j76192719831905_2_alg».proof.Proof.Gen.ReferenceIdeal
import proofs.«137653_j76192719831905_2_alg».proof.Proof.Gen.ReferenceIdeal.Run
import proofs.«137653_j76192719831905_2_alg».proof.Proof.Gen.ReferenceIdeal.Read
import proofs.«137653_j76192719831905_2_alg».proof.Proof.Gen.Pre_finite_inputs
import proofs.«137653_j76192719831905_2_alg».proof.Proof.PreFacts
import proofs.«137653_j76192719831905_2_alg».proof.Proof.KernelRun
import proofs.«137653_j76192719831905_2_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame run. -/
theorem frame_k : Cert.frame_Kernel := fun m ρ _ => Cert.Kernel.Gen.frame m ρ

/-- The same for its idealisation. -/
theorem frame_ki : Cert.frame_KernelIdeal := fun m ρ _ => Cert.KernelIdeal.Gen.frame m ρ

/-- The reference has no region: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the same array of extended reals: the kernel's at
    `x · s + (β − μ · s)`, the reference's at `(x − μ) / sqrt (v + ε) · w + β` of the same `μ`, `v`, index by index equal
    under the precondition's finiteness and sign facts. -/
theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f2, f3, f4, f5, f7, f8, fpos⟩ := Cert.PreFacts.of_pre _ _ _ _ _ _ _ _ _ (hpre c)
  obtain ⟨a0, a1, a2, a3, a4, a5, a6, a7, a8⟩ := hagree c
  rw [Cert.ReferenceIdeal.Read.val_main_v61_eq, a0, a1, a2, a3, a4, a5, a6, a7, a8]
  exact (Cert.Bridge.result_eq_ref m c f0 f2 f3 f4 f5 f7 f8 fpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
